-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S192x128 .f32) (main_arg9 : FVec F S128 .f32) (main_arg10 : FVec F S128x64 .f32) (main_arg11 : FVec F S64 .f32) (main_v33 : IVec S_ 1) : IVec S_ 1 :=
  let main_v34 : FVec F S192x128 .f32 := Host.absf main_arg8
  let main_cst_12 : FVec F S_ .f32 := constant S_ .f32 0x7F800000#32
  let main_v35 : FVec F S192x128 .f32 := broadcastInDim S192x128 ![] bcast_S_S192x128 main_cst_12
  let main_v36 : IVec S192x128 1 := cmpf .olt main_v34 main_v35
  let main_c_13 : IVec S_ 1 := constantI S_ 1 1#1
  let main_v37 : IVec S_ 1 := (fun x v => Host.reduce IntOp.andi x v reducesTo_S192x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S192x128 .f32) (main_arg9 : FVec F S128 .f32) (main_arg10 : FVec F S128x64 .f32) (main_arg11 : FVec F S64 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S20000x64 .f32) (main_arg1 : IVec S2x640000 32) (main_arg2 : FVec F S640000x64 .f32) (main_arg3 : FVec F S20000x64 .f32) (main_arg4 : FVec F S192x128 .f32) (main_arg5 : FVec F S128 .f32) (main_arg6 : FVec F S128x64 .f32) (main_arg7 : FVec F S64 .f32) (main_arg8 : FVec F S192x128 .f32) (main_arg9 : FVec F S128 .f32) (main_arg10 : FVec F S128x64 .f32) (main_arg11 : FVec F S64 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S20000x64 .f32 := Host.absf main_arg3
  let main_cst_2 : FVec F S_ .f32 := constant S_ .f32 0x7F800000#32
  let main_v10 : FVec F S20000x64 .f32 := broadcastInDim S20000x64 ![] bcast_S_S20000x64 main_cst_2
  let main_v11 : IVec S20000x64 1 := cmpf .olt main_v9 main_v10
  let main_c_3 : IVec S_ 1 := constantI S_ 1 1#1
  let main_v12 : IVec S_ 1 := (fun x v => Host.reduce IntOp.andi x v reducesTo_S20000x64_S_d0_1 h_S_) main_v11 main_c_3
  let main_v13 : IVec S_ 1 := andi main_v8 main_v12
  let main_v14 : FVec F S192x128 .f32 := Host.absf main_arg4
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg5 main_arg6 main_arg7 main_arg8 main_arg9 main_arg10 main_arg11 main_v13 main_v16
-- ==== Kernel.lean ====
abbrev S20000x64 : Shape := ⟨2, ![20000, 64]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S8000x64 : Shape := ⟨2, ![8000, 64]⟩
abbrev S64x128 : Shape := ⟨2, ![64, 128]⟩
abbrev S8000x128 : Shape := ⟨2, ![8000, 128]⟩
abbrev S1x128 : Shape := ⟨2, ![1, 128]⟩
abbrev S1x64 : Shape := ⟨2, ![1, 64]⟩
abbrev S4000x64 : Shape := ⟨2, ![4000, 64]⟩
abbrev S4000x128 : Shape := ⟨2, ![4000, 128]⟩

abbrev nBuf : Space → Nat
  | .hbm => 47
  | .vmem => 24
  | .smem => 0
  | _ => 0

abbrev bufTy : (tb : Table) → Fin (tcTables nBuf tb) → BufTy
  | .hbm, ⟨0, _⟩ => ⟨S20000x64, .f32⟩
  | .hbm, ⟨1, _⟩ => ⟨S2x640000, .i32⟩
  | .hbm, ⟨2, _⟩ => ⟨S640000x64, .f32⟩
  | .hbm, ⟨3, _⟩ => ⟨S20000x64, .f32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S20000x64, .bf16⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x64, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x64, .bf16⟩
  | .hbm, ⟨35, _⟩ => ⟨S192x128, .bf16⟩
  | .hbm, ⟨36, _⟩ => ⟨S128x64, .bf16⟩
  | .hbm, ⟨37, _⟩ => ⟨S192x128, .bf16⟩
  | .hbm, ⟨38, _⟩ => ⟨S128x64, .bf16⟩
  | .hbm, ⟨39, _⟩ => ⟨S640000x64, .f32⟩
  | .hbm, ⟨40, _⟩ => ⟨S_, .f32⟩
  | .hbm, ⟨41, _⟩ => ⟨S20000x64, .f32⟩
  | .hbm, ⟨42, _⟩ => ⟨S640000x1, .i32⟩
  | .hbm, ⟨43, _⟩ => ⟨S20000x64, .f32⟩
  | .hbm, ⟨44, _⟩ => ⟨S20000x64, .bf16⟩
  | .hbm, ⟨45, _⟩ => ⟨S20000x64, .bf16⟩
  | .hbm, ⟨46, _⟩ => ⟨S20000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x64, .f32⟩
  | .local _ .vmem, ⟨5, _⟩ => ⟨S8000x64, .f32⟩
  | .local _ .vmem, ⟨6, _⟩ => ⟨S192x128, .bf16⟩
  | .local _ .vmem, ⟨7, _⟩ => ⟨S128, .f32⟩
  | .local _ .vmem, ⟨8, _⟩ => ⟨S128x64, .bf16⟩
  | .local _ .vmem, ⟨9, _⟩ => ⟨S64, .f32⟩
  | .local _ .vmem, ⟨10, _⟩ => ⟨S8000x64, .f32⟩
  | .local _ .vmem, ⟨11, _⟩ => ⟨S8000x64, .f32⟩
  | .local _ .vmem, ⟨12, _⟩ => ⟨S4000x64, .bf16⟩
  | .local _ .vmem, ⟨13, _⟩ => ⟨S4000x64, .bf16⟩
  | .local _ .vmem, ⟨14, _⟩ => ⟨S4000x64, .bf16⟩
  | .local _ .vmem, ⟨15, _⟩ => ⟨S4000x64, .bf16⟩
  | .local _ .vmem, ⟨16, _⟩ => ⟨S4000x64, .bf16⟩
  | .local _ .vmem, ⟨17, _⟩ => ⟨S4000x64, .bf16⟩
  | .local _ .vmem, ⟨18, _⟩ => ⟨S192x128, .bf16⟩
  | .local _ .vmem, ⟨19, _⟩ => ⟨S128, .f32⟩
  | .local _ .vmem, ⟨20, _⟩ => ⟨S128x64, .bf16⟩
  | .local _ .vmem, ⟨21, _⟩ => ⟨S64, .f32⟩
  | .local _ .vmem, ⟨22, _⟩ => ⟨S4000x64, .f32⟩
  | .local _ .vmem, ⟨23, _⟩ => ⟨S4000x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S192x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S192x128_S64x128_0_0 : ∀ a, (![0, 0] : Fin 2 → Nat) a + S64x128.size a ≤ S192x128.size a
  h_S64x128 : 0 < S64x128.numel
  shapeCasts_S64x128_S64x128 : S64x128.ShapeCasts S64x128
  inb_S192x128_S64x128_64_0 : ∀ a, (![64, 0] : Fin 2 → Nat) a + S64x128.size a ≤ S192x128.size a
  inb_S192x128_S64x128_128_0 : ∀ a, (![128, 0] : Fin 2 → Nat) a + S64x128.size a ≤ S192x128.size a
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S20000x64 : S_.BroadcastsInDim S20000x64 (![] : Fin 0 → Fin S20000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x128_S4000x128 : S1x128.Broadcasts S4000x128
  broadcasts_S1x64_S4000x64 : S1x64.Broadcasts S4000x64
  gather_S20000x64_S640000x1_S640000x64_1_0_n_n_0_1_164_wf : GatherDims.WF S20000x64 S640000x1 S640000x64 [1] [0] [] [0] [] 1 ![1, 64]
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  scatter_S20000x64_S640000x1_S640000x64_1_0_0_1_wf : ScatterDims.WF S20000x64 S640000x1 S640000x64 [1] [0] [0] 1
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S640000x64.size a
  hwx0_0 : ∀ i : grid0.Coords, EltTy.bits .bf16 = 32 ∨ (Rect.block (s := S640000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S640000x64.size a
  hwx0_1 : ∀ i : grid0.Coords, EltTy.bits .bf16 = 32 ∨ (Rect.block (s := S640000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S640000x64.size a
  hwx0_2 : ∀ i : grid0.Coords, EltTy.bits .f32 = 32 ∨ (Rect.block (s := S640000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .bf16 = 32 ∨ (Rect.block (s := S192x128) S192x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S640000x64.size a
  hwx0_7 : ∀ i : grid0.Coords, EltTy.bits .f32 = 32 ∨ (Rect.block (s := S640000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S20000x64.size a
  hwx1_0 : ∀ i : grid1.Coords, EltTy.bits .bf16 = 32 ∨ (Rect.block (s := S20000x64) S4000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S20000x64.size a
  hwx1_1 : ∀ i : grid1.Coords, EltTy.bits .bf16 = 32 ∨ (Rect.block (s := S20000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S20000x64.size a
  hwx1_2 : ∀ i : grid1.Coords, EltTy.bits .bf16 = 32 ∨ (Rect.block (s := S20000x64) S4000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x128.size a ≤ S192x128.size a
  hwx1_3 : ∀ i : grid1.Coords, EltTy.bits .bf16 = 32 ∨ (Rect.block (s := S192x128) S192x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S20000x64.size a
  hwx1_7 : ∀ i : grid1.Coords, EltTy.bits .f32 = 32 ∨ (Rect.block (s := S20000x64) S4000x64.size (cc1_transform_7 i) (hinb1_7 i)).WholeWords (EltTy.packing .f32)

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x64 : Shape := ⟨2, ![20000, 64]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x192 : Shape := ⟨2, ![640000, 192]⟩
abbrev S640000x128 : Shape := ⟨2, ![640000, 128]⟩
abbrev S1x128 : Shape := ⟨2, ![1, 128]⟩
abbrev S1x64 : Shape := ⟨2, ![1, 64]⟩
abbrev S20000x192 : Shape := ⟨2, ![20000, 192]⟩
abbrev S20000x128 : Shape := ⟨2, ![20000, 128]⟩

abbrev nBuf : Space → Nat
  | .hbm => 62
  | .vmem => 0
  | .smem => 0
  | _ => 0

abbrev bufTy : (tb : Table) → Fin (tcTables nBuf tb) → BufTy
  | .hbm, ⟨0, _⟩ => ⟨S20000x64, .f32⟩
  | .hbm, ⟨1, _⟩ => ⟨S2x640000, .i32⟩
  | .hbm, ⟨2, _⟩ => ⟨S640000x64, .f32⟩
  | .hbm, ⟨3, _⟩ => ⟨S20000x64, .f32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x64, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x64, .f32⟩
  | .hbm, ⟨34, _⟩ => ⟨S640000x192, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S640000x64, .f32⟩
  | .hbm, ⟨43, _⟩ => ⟨S1x64, .f32⟩
  | .hbm, ⟨44, _⟩ => ⟨S640000x64, .f32⟩
  | .hbm, ⟨45, _⟩ => ⟨S640000x64, .f32⟩
  | .hbm, ⟨46, _⟩ => ⟨S_, .f32⟩
  | .hbm, ⟨47, _⟩ => ⟨S20000x64, .f32⟩
  | .hbm, ⟨48, _⟩ => ⟨S640000x1, .i32⟩
  | .hbm, ⟨49, _⟩ => ⟨S20000x64, .f32⟩
  | .hbm, ⟨50, _⟩ => ⟨S20000x192, .f32⟩
  | .hbm, ⟨51, _⟩ => ⟨S20000x128, .f32⟩
  | .hbm, ⟨52, _⟩ => ⟨S1x128, .f32⟩
  | .hbm, ⟨53, _⟩ => ⟨S20000x128, .f32⟩
  | .hbm, ⟨54, _⟩ => ⟨S20000x128, .f32⟩
  | .hbm, ⟨55, _⟩ => ⟨S_, .f32⟩
  | .hbm, ⟨56, _⟩ => ⟨S20000x128, .f32⟩
  | .hbm, ⟨57, _⟩ => ⟨S20000x128, .f32⟩
  | .hbm, ⟨58, _⟩ => ⟨S20000x64, .f32⟩
  | .hbm, ⟨59, _⟩ => ⟨S1x64, .f32⟩
  | .hbm, ⟨60, _⟩ => ⟨S20000x64, .f32⟩
  | .hbm, ⟨61, _⟩ => ⟨S20000x64, .f32⟩
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x64_S640000x64_S640000x64_S640000x192_d1 : Shape.Concatenates [S640000x64, S640000x64, S640000x64] S640000x192 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S20000x64 : S_.BroadcastsInDim S20000x64 (![] : Fin 0 → Fin S20000x64.rank)
  concatenates_S20000x64_S20000x64_S20000x64_S20000x192_d1 : Shape.Concatenates [S20000x64, S20000x64, S20000x64] S20000x192 1
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x64_S20000x64_0_1 : S1x64.BroadcastsInDim S20000x64 (![0, 1] : Fin 2 → Fin S20000x64.rank)
  gather_S20000x64_S640000x1_S640000x64_1_0_n_n_0_1_164_wf : GatherDims.WF S20000x64 S640000x1 S640000x64 [1] [0] [] [0] [] 1 ![1, 64]
  dot_S640000x192_S192x128_S640000x128_1_0_0_1_n_n_wf : DotDims.WF S640000x192 S192x128 S640000x128 [1] [0] [0] [1] [] []
  dot_S640000x128_S128x64_S640000x64_1_0_0_1_n_n_wf : DotDims.WF S640000x128 S128x64 S640000x64 [1] [0] [0] [1] [] []
  scatter_S20000x64_S640000x1_S640000x64_1_0_0_1_wf : ScatterDims.WF S20000x64 S640000x1 S640000x64 [1] [0] [0] 1
  dot_S20000x192_S192x128_S20000x128_1_0_0_1_n_n_wf : DotDims.WF S20000x192 S192x128 S20000x128 [1] [0] [0] [1] [] []
  dot_S20000x128_S128x64_S20000x64_1_0_0_1_n_n_wf : DotDims.WF S20000x128 S128x64 S20000x64 [1] [0] [0] [1] [] []

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S640000x192_S192x128_S640000x128_1_0_0_1_n_n : DotDims S640000x192 S192x128 S640000x128 where
  lhsContracting := [1]
  rhsContracting := [0]
  lhsNonContracting := [0]
  rhsNonContracting := [1]
  lhsBatch := []
  rhsBatch := []
  wf := dot_S640000x192_S192x128_S640000x128_1_0_0_1_n_n_wf
def dot_S640000x128_S128x64_S640000x64_1_0_0_1_n_n : DotDims S640000x128 S128x64 S640000x64 where
  lhsContracting := [1]
  rhsContracting := [0]
  lhsNonContracting := [0]
  rhsNonContracting := [1]
  lhsBatch := []
  rhsBatch := []
  wf := dot_S640000x128_S128x64_S640000x64_1_0_0_1_n_n_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S20000x192_S192x128_S20000x128_1_0_0_1_n_n : DotDims S20000x192 S192x128 S20000x128 where
  lhsContracting := [1]
  rhsContracting := [0]
  lhsNonContracting := [0]
  rhsNonContracting := [1]
  lhsBatch := []
  rhsBatch := []
  wf := dot_S20000x192_S192x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

class Facts : Prop extends Facts₀ where

variable [Facts]
-- ==== Proof.KernelRun.lean ====
/-
  The idealized kernel's run, with every buffer of the final memory named.

  @main is four segments: the host operations before the first pallas_call, that call, the host operations
  between the calls, and the second call. The contents of a core's buffers at the four boundaries are a fold
  from the launch memory (`Gen.W1 … Gen.W4`), and the generated frame proves that every weakly fair execution
  terminates with every unscoped buffer at the last boundary's contents, of which it keeps only that the
  arguments are unchanged. Here the same run is stated keeping all of it: each unscoped buffer of the final
  memory is `Gen.W4` there, so in particular the two result buffers are.
-/
import proofs.«175040_j7103875907705_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core
    ends at the contents of the last segment boundary. -/
theorem run_boundary : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.WholeRun

end
-- ==== Proof.Spec.lean ====
/-
  The function both programs compute, row by row, on the extended reals.

  A message-passing layer applies the same three-input perceptron twice. A row takes three feature
  vectors `a b c` of length 64; the hidden layer has 128 units and the first weight matrix has
  192 rows, read as three bands of 64 rows, one band per input:

      pre k   = ((Σ_d a d · W1[d, k] + Σ_d b d · W1[64 + d, k]) + Σ_d c d · W1[128 + d, k]) + b1 k
      out j   = (Σ_k max (pre k) 0 · W2[k, j]) + b2 j

  The kernel adds the three partial products in this order; the reference joins `a b c` into one
  vector of length 192 and takes a single product. The two agree because a sum over 192 terms is the
  sum of its three bands of 64 terms (`sum_bands`), which holds in any commutative additive monoid —
  so in particular on the extended reals, infinities included, with no finiteness assumed.
-/
import Idealize.ShloMosaic.PureOps.Ideal
import Idealize.ShloMosaic.PureOps.Ideal.Laws
import Idealize.ShloMosaic.Lib.ValueIdx

noncomputable section

open scoped BigOperators

namespace Cert.MessagePassing

open Idealize.ShloMosaic Idealize.ShloMosaic.ValueIdx

/-- A matrix of extended reals with literal extents. -/
abbrev Arr2 (n0 n1 : Nat) : Type := (⟨2, ![n0, n1]⟩ : Shape).Idx → EReal
/-- A vector of extended reals with a literal extent. -/
abbrev Arr1 (n : Nat) : Type := (⟨1, ![n]⟩ : Shape).Idx → EReal

/-- Row `d` of the first band of a 192-row matrix. -/
def band0 (d : Fin 64) : Fin 192 := ⟨d.val, by omega⟩
/-- Row `d` of the second band: row `64 + d`. -/
def band1 (d : Fin 64) : Fin 192 := ⟨64 + d.val, by omega⟩
/-- Row `d` of the third band: row `128 + d`. -/
def band2 (d : Fin 64) : Fin 192 := ⟨128 + d.val, by omega⟩

/-- One band of a 192-row matrix as a 64-row matrix. -/
def bandOf (β : Fin 64 → Fin 192) (W : Arr2 192 128) : Arr2 64 128 := fun i => W (ix2 (β (i 0)) (i 1))

/-- The float zero both programs compare against, kept as the word they print. -/
def zeroWord : EReal := Ideal.ofBits .f32 0x00000000#32

/-- The perceptron over three separate 64-row weight pieces: the form the kernel's body has. -/
def mlpPieces {R : Nat} (A B C : Arr2 R 64) (Wa Wb Wc : Arr2 64 128) (b1 : Arr1 128) (W2 : Arr2 128 64) (b2 : Arr1 64) :
    Arr2 R 64 := fun i =>
  (∑ k : Fin 128,
      max ((((∑ d : Fin 64, A (ix2 (i 0) d) * Wa (ix2 d k)) + ∑ d : Fin 64, B (ix2 (i 0) d) * Wb (ix2 d k))
              + ∑ d : Fin 64, C (ix2 (i 0) d) * Wc (ix2 d k)) + b1 (ix1 k)) zeroWord
        * W2 (ix2 k (i 1)))
    + b2 (ix1 (i 1))

/-- The perceptron over the whole 192-row first weight matrix: its three bands are the pieces. -/
def mlp {R : Nat} (A B C : Arr2 R 64) (W1 : Arr2 192 128) (b1 : Arr1 128) (W2 : Arr2 128 64) (b2 : Arr1 64) : Arr2 R 64 :=
  mlpPieces A B C (bandOf band0 W1) (bandOf band1 W1) (bandOf band2 W1) b1 W2 b2

/-- Row `p` of the perceptron over pieces is row `P` of the perceptron over whole arrays as soon as row `p` of each
    input is row `P` of the array, the weight pieces are the bands, and the remaining parameters agree: the value at a
    row depends on nothing else. -/
theorem mlpPieces_rows {R R' : Nat} (a b c : Arr2 R 64) (wa wb wc : Arr2 64 128) (b1' : Arr1 128) (w2' : Arr2 128 64)
    (b2' : Arr1 64) (A B C : Arr2 R' 64) (W1 : Arr2 192 128) (b1 : Arr1 128) (W2 : Arr2 128 64) (b2 : Arr1 64)
    (p : Fin R) (P : Fin R') (q : Fin 64)
    (ha : ∀ d, a (ix2 p d) = A (ix2 P d)) (hb : ∀ d, b (ix2 p d) = B (ix2 P d)) (hc : ∀ d, c (ix2 p d) = C (ix2 P d))
    (hwa : ∀ d k, wa (ix2 d k) = W1 (ix2 (band0 d) k)) (hwb : ∀ d k, wb (ix2 d k) = W1 (ix2 (band1 d) k))
    (hwc : ∀ d k, wc (ix2 d k) = W1 (ix2 (band2 d) k))
    (hb1 : ∀ k, b1' (ix1 k) = b1 (ix1 k)) (hw2 : ∀ k j, w2' (ix2 k j) = W2 (ix2 k j)) (hb2 : ∀ j, b2' (ix1 j) = b2 (ix1 j)) :
    mlpPieces a b c wa wb wc b1' w2' b2' (ix2 p q) = mlp A B C W1 b1 W2 b2 (ix2 P q) := by
  show (∑ k : Fin 128,
      max ((((∑ d : Fin 64, a (ix2 p d) * wa (ix2 d k)) + ∑ d : Fin 64, b (ix2 p d) * wb (ix2 d k))
              + ∑ d : Fin 64, c (ix2 p d) * wc (ix2 d k)) + b1' (ix1 k)) zeroWord * w2' (ix2 k q)) + b2' (ix1 q)
    = (∑ k : Fin 128,
      max ((((∑ d : Fin 64, A (ix2 P d) * W1 (ix2 (band0 d) k)) + ∑ d : Fin 64, B (ix2 P d) * W1 (ix2 (band1 d) k))
              + ∑ d : Fin 64, C (ix2 P d) * W1 (ix2 (band2 d) k)) + b1 (ix1 k)) zeroWord * W2 (ix2 k q)) + b2 (ix1 q)
  simp only [ha, hb, hc, hwa, hwb, hwc, hb1, hw2, hb2]

/-- A sum over 192 terms is the sum of its three bands of 64 terms, in any commutative additive monoid. -/
theorem sum_bands {M : Type} [AddCommMonoid M] (f : Fin 192 → M) :
    ∑ q : Fin 192, f q = ((∑ d : Fin 64, f (band0 d)) + ∑ d : Fin 64, f (band1 d)) + ∑ d : Fin 64, f (band2 d) := by
  have h1 : ∑ q : Fin (128 + 64), f q
      = (∑ q : Fin 128, f (Fin.castAdd 64 q)) + ∑ d : Fin 64, f (Fin.natAdd 128 d) :=
    Fin.sum_univ_add (a := 128) (b := 64) (fun q : Fin (128 + 64) => f q)
  have h2 : ∑ q : Fin (64 + 64), f (Fin.castAdd 64 q)
      = (∑ d : Fin 64, f (Fin.castAdd 64 (Fin.castAdd 64 d))) + ∑ d : Fin 64, f (Fin.castAdd 64 (Fin.natAdd 64 d)) :=
    Fin.sum_univ_add (a := 64) (b := 64) (fun q : Fin (64 + 64) => f (Fin.castAdd 64 q))
  exact h1.trans (congrArg (· + _) h2)

end Cert.MessagePassing

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.Perceptron.lean ====
/-
  The kernel body's arithmetic is the perceptron of Spec.lean, for any number of rows.

  The body forms three `R×64` by `64×128` products into zero accumulators, adds them left to right, adds the
  first bias repeated down the rows, takes the maximum with a splat zero, multiplies the result (narrowed in
  format, which changes nothing on the extended reals) by the `128×64` second weight into a zero accumulator,
  and adds the second bias repeated down the rows. Read at entry `(p, q)` each product is a finite sum over
  the contracted coordinate and each bias is its entry, which is `mlpPieces` at `(p, q)` term for term.
-/
import proofs.«175040_j7103875907705_2_alg».proof.Proof.Spec
import proofs.«175040_j7103875907705_2_alg».proof.Proof.LibPlainDot
import proofs.«175040_j7103875907705_2_alg».proof.Proof.LibRowBias

noncomputable section

open scoped BigOperators

namespace Cert.MessagePassing

open Idealize.ShloMosaic Idealize.ShloMosaic.ValueIdx Cert.PlainDot Cert.RowBias

theorem perceptron_body {R : Nat}
    (d1 : DotDims ⟨2, ![R, 64]⟩ ⟨2, ![64, 128]⟩ ⟨2, ![R, 128]⟩) (h1 : IsPlain d1)
    (d2 : DotDims ⟨2, ![R, 128]⟩ ⟨2, ![128, 64]⟩ ⟨2, ![R, 64]⟩) (h2 : IsPlain d2)
    {φa φb φc φw φv : FTy}
    (a : FVec Ideal ⟨2, ![R, 64]⟩ φa) (b : FVec Ideal ⟨2, ![R, 64]⟩ φb) (c : FVec Ideal ⟨2, ![R, 64]⟩ φc)
    (wa wb wc : FVec Ideal ⟨2, ![64, 128]⟩ φw) (b1 : FVec Ideal ⟨1, ![128]⟩ .f32)
    (w2 : FVec Ideal ⟨2, ![128, 64]⟩ φv) (b2 : FVec Ideal ⟨1, ![64]⟩ .f32)
    (hs1 : (⟨1, ![128]⟩ : Shape).ShapeCasts ⟨2, ![1, 128]⟩) (hb1 : (⟨2, ![1, 128]⟩ : Shape).Broadcasts ⟨2, ![R, 128]⟩)
    (hs2 : (⟨1, ![64]⟩ : Shape).ShapeCasts ⟨2, ![1, 64]⟩) (hb2 : (⟨2, ![1, 64]⟩ : Shape).Broadcasts ⟨2, ![R, 64]⟩)
    (hlt : FTy.bf16.bits < FTy.f32.bits) :
    addf (matmul d2 none
            (truncf .bf16
              (maximumf
                (addf (addf (addf (matmul d1 none a wa (constant ⟨2, ![R, 128]⟩ .f32 0x00000000#32))
                                  (matmul d1 none b wb (constant ⟨2, ![R, 128]⟩ .f32 0x00000000#32)))
                            (matmul d1 none c wc (constant ⟨2, ![R, 128]⟩ .f32 0x00000000#32)))
                      (broadcastTo ⟨2, ![R, 128]⟩ (shapeCast ⟨2, ![1, 128]⟩ b1 hs1) hb1))
                (broadcast ⟨2, ![R, 128]⟩ (Scalar.ofBits .f32 0x00000000#32))) hlt)
            w2 (constant ⟨2, ![R, 64]⟩ .f32 0x00000000#32))
         (broadcastTo ⟨2, ![R, 64]⟩ (shapeCast ⟨2, ![1, 64]⟩ b2 hs2) hb2)
      = mlpPieces a b c wa wb wc b1 w2 b2 := by
  funext i
  obtain ⟨p, q, rfl⟩ : ∃ (p : Fin R) (q : Fin 64), i = ix2 p q := ⟨i 0, i 1, eq_ix2 i⟩
  rw [addf_apply, matmul_zero_apply h2, bias_rows (by decide) b2 hs2 hb2 p q]
  show _ = (∑ k : Fin 128,
      max ((((∑ d : Fin 64, a (ix2 p d) * wa (ix2 d k)) + ∑ d : Fin 64, b (ix2 p d) * wb (ix2 d k))
              + ∑ d : Fin 64, c (ix2 p d) * wc (ix2 d k)) + b1 (ix1 k)) zeroWord
        * w2 (ix2 k q)) + b2 (ix1 q)
  refine congrArg (· + _) (Finset.sum_congr rfl fun k _ => congrArg (· * _) ?_)
  rw [truncf_apply, maximumf_apply, addf_apply, addf_apply, addf_apply, matmul_zero_apply h1, matmul_zero_apply h1,
    matmul_zero_apply h1, bias_rows (by decide) b1 hs1 hb1 p k, broadcast_apply]
  rfl

end Cert.MessagePassing

end
-- ==== Proof.EdgeRegion.lean ====
/-
  The first pallas_call as a function of the arrays it finds: the edge perceptron, whole.

  The grid has 80 points; point `t` reads rows `8000·t … 8000·t + 7999` of the three edge-feature arrays and
  all of the weights and biases, and writes the same rows of the output. Inside the block the body is the
  perceptron of Spec.lean (Perceptron.lean), whose row `p` depends only on row `p` of the three inputs, so
  block `t` of what is written is block `t` of the perceptron applied to the whole arrays; the 80 blocks
  tile the 640000 rows, so the output array ends holding exactly that. Everything is stated for any
  contents `V` the call may be entered with.
-/
import proofs.«175040_j7103875907705_2_alg».proof.Proof.Gen.KernelIdeal.Frame
import proofs.«175040_j7103875907705_2_alg».proof.Proof.Perceptron
import Idealize.ShloMosaic.Lib.Pipeline.Value

set_option maxRecDepth 16384

noncomputable section

open scoped BigOperators

namespace Cert.KernelIdeal.EdgeRegion

open Cert.KernelIdeal Cert.KernelIdeal.Gen Idealize.ShloMosaic Idealize.ShloMosaic.TcCoe Idealize.ShloMosaic.ValueIdx
open Idealize.SL.Sem Cert.MessagePassing Cert.PlainDot
open Idealize.ShloMosaic.Pipeline (Dat)

variable (V : (c : Dev nD) → (b : Ref sig .tc) → Buf (Elt Ideal) ((c : Thread nD τ).loc b))

/-- The body's stored value is the perceptron of its loaded blocks. -/
theorem pay_eq (v0 v2 : Vec Ideal S8000x64 .bf16) (v4 : Vec Ideal S8000x64 .f32) (v6 v8 v10 : Vec Ideal S64x128 .bf16)
    (v17 : Vec Ideal S128 .f32) (v24 : Vec Ideal S128x64 .bf16) (v27 : Vec Ideal S64 .f32) :
    k0_pay1 (F := Ideal) v0 v2 v4 v6 v8 v10 v17 v24 v27 = mlpPieces v0 v2 v4 v6 v8 v10 v17 v24 v27 := by
  unfold k0_pay1
  simp only [shapeCast_self]
  exact perceptron_body (R := 8000) dot_S8000x64_S64x128_S8000x128_1_0_0_1_n_n ⟨rfl, rfl, rfl, rfl, rfl, rfl⟩
    dot_S8000x128_S128x64_S8000x64_1_0_0_1_n_n ⟨rfl, rfl, rfl, rfl, rfl, rfl⟩ v0 v2 (truncf .bf16 v4 bitsLt_bf16_f32)
    v6 v8 v10 v17 v24 v27 _ _ _ _ _

/-- The whole output array: the perceptron of the three edge-feature arrays and the weights, as the call finds them. -/
def edgeOut (c : Dev nD) : S640000x64.Idx → EReal :=
  mlp (V c main_v11) (V c main_v18) (V c main_arg2) (V c main_v19) (V c main_arg5) (V c main_v20) (V c main_arg7)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output sit at block `t` of the
    rows and block 0 of the columns; the weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of block `t` is row `8000·t + p` of the array. -/
def rowOf (t : Fin cfg0.N) (p : Fin 8000) : Fin 640000 :=
  ⟨t.val * 8000 + p.val, by have h : t.val < 80 := lt_of_lt_of_eq t.isLt N_0
                            have := p.isLt; omega⟩

/-- Where entry `(p, q)` of output block `t` sits in the array. -/
theorem emb_out (t : Fin cfg0.N) (p : Fin 8000) (q : Fin 64) :
    (((cfg0.win 7).blk t).view.emb (ix2 p q) : S640000x64.Idx) = ix2 (rowOf t p) q := by
  obtain ⟨-, -, -, -, -, -, -, -, -, -, -, -, e0, e1⟩ := idx_facts t
  funext a; apply Fin.ext
  match a with
  | ⟨0, _⟩ => show win0_7.index t (0 : Fin 2) * 8000 + 1 * p.val = t.val * 8000 + p.val; rw [e0]; omega
  | ⟨1, _⟩ => show win0_7.index t (1 : Fin 2) * 64 + 1 * q.val = q.val; rw [e1]; omega

/-- The first edge-feature block at `(p, d)` is the array's row `8000·t + p`. -/
theorem blk_a (c : Dev nD) (t : Fin cfg0.N) (p : Fin 8000) (d : Fin 64) :
    iblk0 V c 0 t (ix2 p d) = V c main_v11 (ix2 (rowOf t p) d) := by
  obtain ⟨e0, e1, -⟩ := idx_facts t
  show V c main_v11 (((cfg0.win 0).blk t).view.emb (ix2 p d)) = _
  refine congrArg (V c main_v11) (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 64 + 1 * d.val = d.val; rw [e1]; omega

/-- The second edge-feature block, likewise. -/
theorem blk_b (c : Dev nD) (t : Fin cfg0.N) (p : Fin 8000) (d : Fin 64) :
    iblk0 V c 1 t (ix2 p d) = V c main_v18 (ix2 (rowOf t p) d) := by
  obtain ⟨-, -, e0, e1, -⟩ := idx_facts t
  show V c main_v18 (((cfg0.win 1).blk t).view.emb (ix2 p d)) = _
  refine congrArg (V c main_v18) (funext fun a => Fin.ext ?_)
  match a with
  | ⟨0, _⟩ => show win0_1.index t (0 : Fin 2) * 8000 + 1 * p.val = t.val * 8000 + p.val; rw [e0]; omega
  | ⟨1, _⟩ => show win0_1.index t (1 : Fin 2) * 64 + 1 * d.val = d.val; rw [e1]; omega

/-- The third edge-feature block, likewise. -/
theorem blk_c (c : Dev nD) (t : Fin cfg0.N) (p : Fin 8000) (d : Fin 64) :
    iblk0 V c 2 t (ix2 p d) = V c main_arg2 (ix2 (rowOf t p) d) := by
  obtain ⟨-, -, -, -, e0, e1, -⟩ := idx_facts t
  show V c main_arg2 (((cfg0.win 2).blk t).view.emb (ix2 p d)) = _
  refine congrArg (V c main_arg2) (funext fun a => Fin.ext ?_)
  match a with
  | ⟨0, _⟩ => show win0_2.index t (0 : Fin 2) * 8000 + 1 * p.val = t.val * 8000 + p.val; rw [e0]; omega
  | ⟨1, _⟩ => show win0_2.index t (1 : Fin 2) * 64 + 1 * d.val = d.val; rw [e1]; omega

/-- The first weight's one block is the whole matrix. -/
theorem blk_w1 (c : Dev nD) (t : Fin cfg0.N) (r : Fin 192) (k : Fin 128) :
    iblk0 V c 3 t (ix2 r k) = V c main_v19 (ix2 r k) := by
  obtain ⟨-, -, -, -, -, -, e0, e1, -⟩ := idx_facts t
  show V c main_v19 (((cfg0.win 3).blk t).view.emb (ix2 r k)) = _
  refine congrArg (V c main_v19) (funext fun a => Fin.ext ?_)
  match a with
  | ⟨0, _⟩ => show win0_3.index t (0 : Fin 2) * 192 + 1 * r.val = r.val; rw [e0]; omega
  | ⟨1, _⟩ => show win0_3.index t (1 : Fin 2) * 128 + 1 * k.val = k.val; rw [e1]; omega

/-- The first bias's one block is the whole vector. -/
theorem blk_b1 (c : Dev nD) (t : Fin cfg0.N) (k : Fin 128) : iblk0 V c 4 t (ix1 k) = V c main_arg5 (ix1 k) := by
  obtain ⟨-, -, -, -, -, -, -, -, e0, -⟩ := idx_facts t
  show V c main_arg5 (((cfg0.win 4).blk t).view.emb (ix1 k)) = _
  refine congrArg (V c main_arg5) (funext fun a => Fin.ext ?_)
  match a with
  | ⟨0, _⟩ => show win0_4.index t (0 : Fin 1) * 128 + 1 * k.val = k.val; rw [e0]; omega

/-- The second weight's one block is the whole matrix. -/
theorem blk_w2 (c : Dev nD) (t : Fin cfg0.N) (k : Fin 128) (q : Fin 64) :
    iblk0 V c 5 t (ix2 k q) = V c main_v20 (ix2 k q) := by
  obtain ⟨-, -, -, -, -, -, -, -, -, e0, e1, -⟩ := idx_facts t
  show V c main_v20 (((cfg0.win 5).blk t).view.emb (ix2 k q)) = _
  refine congrArg (V c main_v20) (funext fun a => Fin.ext ?_)
  match a with
  | ⟨0, _⟩ => show win0_5.index t (0 : Fin 2) * 128 + 1 * k.val = k.val; rw [e0]; omega
  | ⟨1, _⟩ => show win0_5.index t (1 : Fin 2) * 64 + 1 * q.val = q.val; rw [e1]; omega

/-- The second bias's one block is the whole vector. -/
theorem blk_b2 (c : Dev nD) (t : Fin cfg0.N) (q : Fin 64) : iblk0 V c 6 t (ix1 q) = V c main_arg7 (ix1 q) := by
  obtain ⟨-, -, -, -, -, -, -, -, -, -, -, e0, -⟩ := idx_facts t
  show V c main_arg7 (((cfg0.win 6).blk t).view.emb (ix1 q)) = _
  refine congrArg (V c main_arg7) (funext fun a => Fin.ext ?_)
  match a with
  | ⟨0, _⟩ => show win0_6.index t (0 : Fin 1) * 64 + 1 * q.val = q.val; rw [e0]; omega

/-- A load of 64 rows of a 192-row matrix starting at row `o` reads row `o + d`. -/
theorem ld_band (x : Vec Ideal S192x128 .bf16) (o : Nat) (inb : ∀ a, (![o, 0] : Fin 2 → Nat) a + S64x128.size a ≤ S192x128.size a)
    (β : Fin 64 → Fin 192) (hβ : ∀ d, (β d).val = o + d.val) (d : Fin 64) (k : Fin 128) :
    View.ld x (Rect.unit (s := S192x128) ![o, 0] S64x128.size inb) (ix2 d k) = x (ix2 (β d) k) := by
  show x ((Rect.unit (s := S192x128) ![o, 0] S64x128.size inb).emb (ix2 d k)) = _
  refine congrArg x (funext fun a => Fin.ext ?_)
  match a with
  | ⟨0, _⟩ => show o + 1 * d.val = (β d).val; rw [hβ]; omega
  | ⟨1, _⟩ => show 0 + 1 * k.val = k.val; omega

/-- Entry `y` of the perceptron of point `t`'s blocks is the whole-array perceptron where block `t` puts `y`. -/
theorem block_point (c : Dev nD) (t : Fin cfg0.N) (y : S8000x64.Idx) :
    mlpPieces (iblk0 V c 0 t) (iblk0 V c 1 t) (iblk0 V c 2 t) (View.ld (iblk0 V c 3 t) r0_1) (View.ld (iblk0 V c 3 t) r0_2)
      (View.ld (iblk0 V c 3 t) r0_3) (iblk0 V c 4 t) (iblk0 V c 5 t) (iblk0 V c 6 t) y
      = edgeOut V c (((cfg0.win 7).blk t).view.emb y) := by
  obtain ⟨p, q, rfl⟩ : ∃ (p : Fin 8000) (q : Fin 64), y = ix2 p q := ⟨y 0, y 1, eq_ix2 y⟩
  rw [emb_out]
  exact mlpPieces_rows _ _ _ _ _ _ _ _ _ _ _ _ _ _ _ _ p (rowOf t p) q
    (blk_a V c t p) (blk_b V c t p) (blk_c V c t p)
    (fun d k => (ld_band _ 0 _ band0 (fun d => (Nat.zero_add _).symm) d k).trans (blk_w1 V c t _ k))
    (fun d k => (ld_band _ 64 _ band1 (fun _ => rfl) d k).trans (blk_w1 V c t _ k))
    (fun d k => (ld_band _ 128 _ band2 (fun _ => rfl) d k).trans (blk_w1 V c t _ k))
    (blk_b1 V c t) (blk_w2 V c t) (blk_b2 V c t)

/-- What point `t` writes back is block `t` of the whole-array perceptron. -/
theorem flushed_eq (c : Dev nD) (t : Fin cfg0.N) :
    (dat0 V c).flushed 7 t = ((cfg0.win 7).blk t).view.read (Elt Ideal) (edgeOut V c) := by
  show (cfg0.win 7).cut (grid0.coords t) ((dat0 V c).after 7 t) = _
  rw [after0_7]
  unfold out0_7
  rw [View.canon_unit_zero hz2]
  simp only [View.ld_unit_zero (S := S8000x64) hz2, View.ld_unit_zero (S := S128) hz1,
    View.ld_unit_zero (S := S128x64) hz2, View.ld_unit_zero (S := S64) hz1]
  funext y
  exact (congrFun (pay_eq _ _ _ _ _ _ _ _ _) y).trans (block_point V c t y)

/-- An index of the output array is in point `t`'s block exactly when its row is among the block's 8000 rows. -/
theorem mem_blk (t : Fin cfg0.N) (i : S640000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v23).slice (win0_7.rect t)).set ↔ _
  rw [View.set_slice_whole, Rect.mem_set_unit]
  exact Iff.rfl

/-- Every row of the output lies in the block of the point numbered by the row's quotient by 8000. -/
theorem cover (i : S640000x64.Idx) :
    ∃ t : Fin cfg0.N, (cfg0.win 7).flush t = true ∧ i ∈ ((cfg0.win 7).blk t).view.set := by
  have hi0 : (i 0).val < 640000 := (i 0).isLt
  have hi1 : (i 1).val < 64 := (i 1).isLt
  let t : Fin cfg0.N := ⟨(i 0).val / 8000, by rw [show cfg0.N = 80 from N_0]; omega⟩
  obtain ⟨-, -, -, -, -, -, -, -, -, -, -, -, e0, e1⟩ := idx_facts t
  have ht : t.val = (i 0).val / 8000 := rfl
  refine ⟨t, flush0_7 t, ?_⟩
  rw [mem_blk]
  intro a
  match a with
  | ⟨0, _⟩ => show win0_7.index t (0 : Fin 2) * 8000 ≤ (i 0).val ∧ (i 0).val < win0_7.index t (0 : Fin 2) * 8000 + 8000
              rw [e0, ht]; omega
  | ⟨1, _⟩ => show win0_7.index t (1 : Fin 2) * 64 ≤ (i 1).val ∧ (i 1).val < win0_7.index t (1 : Fin 2) * 64 + 64
              rw [e1]; omega

/-- After the call the output array holds the perceptron of the arrays the call found. -/
theorem final (c : Dev nD) : (dat0 V c).arrAt 7 cfg0.N = edgeOut V c :=
  (dat0 V c).arrAt_eq_of_cover 7 (edgeOut V c) (fun t _ => flushed_eq V c t) (cover)

end Cert.KernelIdeal.EdgeRegion

end
-- ==== Proof.NodeRegion.lean ====
/-
  The second pallas_call as a function of the arrays it finds: the node perceptron, whole.

  The grid has 5 points; point `t` reads rows `4000·t … 4000·t + 3999` of the three node-feature arrays (the
  node features, the aggregated messages, the extra features) and all of the weights and biases, and writes
  the same rows of the output. Inside the block the body is the perceptron of Spec.lean (Perceptron.lean),
  whose row `p` depends only on row `p` of the three inputs, so block `t` of what is written is block `t`
  of the perceptron applied to the whole arrays; the 5 blocks tile the 20000 rows, so the output array ends
  holding exactly that. Everything is stated for any contents `V` the call may be entered with.
-/
import proofs.«175040_j7103875907705_2_alg».proof.Proof.Gen.KernelIdeal.Frame
import proofs.«175040_j7103875907705_2_alg».proof.Proof.Perceptron
import Idealize.ShloMosaic.Lib.Pipeline.Value

set_option maxRecDepth 16384

noncomputable section

open scoped BigOperators

namespace Cert.KernelIdeal.NodeRegion

open Cert.KernelIdeal Cert.KernelIdeal.Gen Idealize.ShloMosaic Idealize.ShloMosaic.TcCoe Idealize.ShloMosaic.ValueIdx
open Idealize.SL.Sem Cert.MessagePassing Cert.PlainDot
open Idealize.ShloMosaic.Pipeline (Dat)

variable (V : (c : Dev nD) → (b : Ref sig .tc) → Buf (Elt Ideal) ((c : Thread nD τ).loc b))

/-- The body's stored value is the perceptron of its loaded blocks. -/
theorem pay_eq (v0 v2 v4 : Vec Ideal S4000x64 .bf16) (v6 v8 v10 : Vec Ideal S64x128 .bf16)
    (v17 : Vec Ideal S128 .f32) (v24 : Vec Ideal S128x64 .bf16) (v27 : Vec Ideal S64 .f32) :
    k1_pay1 (F := Ideal) v0 v2 v4 v6 v8 v10 v17 v24 v27 = mlpPieces v0 v2 v4 v6 v8 v10 v17 v24 v27 := by
  unfold k1_pay1
  simp only [shapeCast_self]
  exact perceptron_body (R := 4000) dot_S4000x64_S64x128_S4000x128_1_0_0_1_n_n ⟨rfl, rfl, rfl, rfl, rfl, rfl⟩
    dot_S4000x128_S128x64_S4000x64_1_0_0_1_n_n ⟨rfl, rfl, rfl, rfl, rfl, rfl⟩ v0 v2 v4
    v6 v8 v10 v17 v24 v27 _ _ _ _ _

/-- The whole output array: the perceptron of the three node-feature arrays and the weights, as the call finds them. -/
def nodeOut (c : Dev nD) : S20000x64.Idx → EReal :=
  mlp (V c main_v4) (V c main_v27) (V c main_v28) (V c main_v21) (V c main_arg9) (V c main_v22) (V c main_arg11)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output sit at block `t` of the
    rows and block 0 of the columns; the weights and biases at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of block `t` is row `4000·t + p` of the array. -/
def rowOf (t : Fin cfg1.N) (p : Fin 4000) : Fin 20000 :=
  ⟨t.val * 4000 + p.val, by have h : t.val < 5 := lt_of_lt_of_eq t.isLt N_1
                            have := p.isLt; omega⟩

/-- Where entry `(p, q)` of output block `t` sits in the array. -/
theorem emb_out (t : Fin cfg1.N) (p : Fin 4000) (q : Fin 64) :
    (((cfg1.win 7).blk t).view.emb (ix2 p q) : S20000x64.Idx) = ix2 (rowOf t p) q := by
  obtain ⟨-, -, -, -, -, -, -, -, -, -, -, -, e0, e1⟩ := idx_facts t
  funext a; apply Fin.ext
  match a with
  | ⟨0, _⟩ => show win1_7.index t (0 : Fin 2) * 4000 + 1 * p.val = t.val * 4000 + p.val; rw [e0]; omega
  | ⟨1, _⟩ => show win1_7.index t (1 : Fin 2) * 64 + 1 * q.val = q.val; rw [e1]; omega

/-- The first node-feature block at `(p, d)` is the array's row `4000·t + p`. -/
theorem blk_a (c : Dev nD) (t : Fin cfg1.N) (p : Fin 4000) (d : Fin 64) :
    iblk1 V c 0 t (ix2 p d) = V c main_v4 (ix2 (rowOf t p) d) := by
  obtain ⟨e0, e1, -⟩ := idx_facts t
  show V c main_v4 (((cfg1.win 0).blk t).view.emb (ix2 p d)) = _
  refine congrArg (V c main_v4) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 64 + 1 * d.val = d.val; rw [e1]; omega

/-- The second node-feature block, likewise. -/
theorem blk_b (c : Dev nD) (t : Fin cfg1.N) (p : Fin 4000) (d : Fin 64) :
    iblk1 V c 1 t (ix2 p d) = V c main_v27 (ix2 (rowOf t p) d) := by
  obtain ⟨-, -, e0, e1, -⟩ := idx_facts t
  show V c main_v27 (((cfg1.win 1).blk t).view.emb (ix2 p d)) = _
  refine congrArg (V c main_v27) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 64 + 1 * d.val = d.val; rw [e1]; omega

/-- The third node-feature block, likewise. -/
theorem blk_c (c : Dev nD) (t : Fin cfg1.N) (p : Fin 4000) (d : Fin 64) :
    iblk1 V c 2 t (ix2 p d) = V c main_v28 (ix2 (rowOf t p) d) := by
  obtain ⟨-, -, -, -, e0, e1, -⟩ := idx_facts t
  show V c main_v28 (((cfg1.win 2).blk t).view.emb (ix2 p d)) = _
  refine congrArg (V c main_v28) (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 64 + 1 * d.val = d.val; rw [e1]; omega

/-- The first weight's one block is the whole matrix. -/
theorem blk_w1 (c : Dev nD) (t : Fin cfg1.N) (r : Fin 192) (k : Fin 128) :
    iblk1 V c 3 t (ix2 r k) = V c main_v21 (ix2 r k) := by
  obtain ⟨-, -, -, -, -, -, e0, e1, -⟩ := idx_facts t
  show V c main_v21 (((cfg1.win 3).blk t).view.emb (ix2 r k)) = _
  refine congrArg (V c main_v21) (funext fun a => Fin.ext ?_)
  match a with
  | ⟨0, _⟩ => show win1_3.index t (0 : Fin 2) * 192 + 1 * r.val = r.val; rw [e0]; omega
  | ⟨1, _⟩ => show win1_3.index t (1 : Fin 2) * 128 + 1 * k.val = k.val; rw [e1]; omega

/-- The first bias's one block is the whole vector. -/
theorem blk_b1 (c : Dev nD) (t : Fin cfg1.N) (k : Fin 128) : iblk1 V c 4 t (ix1 k) = V c main_arg9 (ix1 k) := by
  obtain ⟨-, -, -, -, -, -, -, -, e0, -⟩ := idx_facts t
  show V c main_arg9 (((cfg1.win 4).blk t).view.emb (ix1 k)) = _
  refine congrArg (V c main_arg9) (funext fun a => Fin.ext ?_)
  match a with
  | ⟨0, _⟩ => show win1_4.index t (0 : Fin 1) * 128 + 1 * k.val = k.val; rw [e0]; omega

/-- The second weight's one block is the whole matrix. -/
theorem blk_w2 (c : Dev nD) (t : Fin cfg1.N) (k : Fin 128) (q : Fin 64) :
    iblk1 V c 5 t (ix2 k q) = V c main_v22 (ix2 k q) := by
  obtain ⟨-, -, -, -, -, -, -, -, -, e0, e1, -⟩ := idx_facts t
  show V c main_v22 (((cfg1.win 5).blk t).view.emb (ix2 k q)) = _
  refine congrArg (V c main_v22) (funext fun a => Fin.ext ?_)
  match a with
  | ⟨0, _⟩ => show win1_5.index t (0 : Fin 2) * 128 + 1 * k.val = k.val; rw [e0]; omega
  | ⟨1, _⟩ => show win1_5.index t (1 : Fin 2) * 64 + 1 * q.val = q.val; rw [e1]; omega

/-- The second bias's one block is the whole vector. -/
theorem blk_b2 (c : Dev nD) (t : Fin cfg1.N) (q : Fin 64) : iblk1 V c 6 t (ix1 q) = V c main_arg11 (ix1 q) := by
  obtain ⟨-, -, -, -, -, -, -, -, -, -, -, e0, -⟩ := idx_facts t
  show V c main_arg11 (((cfg1.win 6).blk t).view.emb (ix1 q)) = _
  refine congrArg (V c main_arg11) (funext fun a => Fin.ext ?_)
  match a with
  | ⟨0, _⟩ => show win1_6.index t (0 : Fin 1) * 64 + 1 * q.val = q.val; rw [e0]; omega

/-- A load of 64 rows of a 192-row matrix starting at row `o` reads row `o + d`. -/
theorem ld_band (x : Vec Ideal S192x128 .bf16) (o : Nat) (inb : ∀ a, (![o, 0] : Fin 2 → Nat) a + S64x128.size a ≤ S192x128.size a)
    (β : Fin 64 → Fin 192) (hβ : ∀ d, (β d).val = o + d.val) (d : Fin 64) (k : Fin 128) :
    View.ld x (Rect.unit (s := S192x128) ![o, 0] S64x128.size inb) (ix2 d k) = x (ix2 (β d) k) := by
  show x ((Rect.unit (s := S192x128) ![o, 0] S64x128.size inb).emb (ix2 d k)) = _
  refine congrArg x (funext fun a => Fin.ext ?_)
  match a with
  | ⟨0, _⟩ => show o + 1 * d.val = (β d).val; rw [hβ]; omega
  | ⟨1, _⟩ => show 0 + 1 * k.val = k.val; omega

/-- Entry `y` of the perceptron of point `t`'s blocks is the whole-array perceptron where block `t` puts `y`. -/
theorem block_point (c : Dev nD) (t : Fin cfg1.N) (y : S4000x64.Idx) :
    mlpPieces (iblk1 V c 0 t) (iblk1 V c 1 t) (iblk1 V c 2 t) (View.ld (iblk1 V c 3 t) r1_1) (View.ld (iblk1 V c 3 t) r1_2)
      (View.ld (iblk1 V c 3 t) r1_3) (iblk1 V c 4 t) (iblk1 V c 5 t) (iblk1 V c 6 t) y
      = nodeOut V c (((cfg1.win 7).blk t).view.emb y) := by
  obtain ⟨p, q, rfl⟩ : ∃ (p : Fin 4000) (q : Fin 64), y = ix2 p q := ⟨y 0, y 1, eq_ix2 y⟩
  rw [emb_out]
  exact mlpPieces_rows _ _ _ _ _ _ _ _ _ _ _ _ _ _ _ _ p (rowOf t p) q
    (blk_a V c t p) (blk_b V c t p) (blk_c V c t p)
    (fun d k => (ld_band _ 0 _ band0 (fun d => (Nat.zero_add _).symm) d k).trans (blk_w1 V c t _ k))
    (fun d k => (ld_band _ 64 _ band1 (fun _ => rfl) d k).trans (blk_w1 V c t _ k))
    (fun d k => (ld_band _ 128 _ band2 (fun _ => rfl) d k).trans (blk_w1 V c t _ k))
    (blk_b1 V c t) (blk_w2 V c t) (blk_b2 V c t)

/-- What point `t` writes back is block `t` of the whole-array perceptron. -/
theorem flushed_eq (c : Dev nD) (t : Fin cfg1.N) :
    (dat1 V c).flushed 7 t = ((cfg1.win 7).blk t).view.read (Elt Ideal) (nodeOut V c) := by
  show (cfg1.win 7).cut (grid1.coords t) ((dat1 V c).after 7 t) = _
  rw [after1_7]
  unfold out1_7
  rw [View.canon_unit_zero hz2]
  simp only [View.ld_unit_zero (S := S4000x64) hz2, View.ld_unit_zero (S := S128) hz1,
    View.ld_unit_zero (S := S128x64) hz2, View.ld_unit_zero (S := S64) hz1]
  funext y
  exact (congrFun (pay_eq _ _ _ _ _ _ _ _ _) y).trans (block_point V c t y)

/-- An index of the output array is in point `t`'s block exactly when its row is among the block's 4000 rows. -/
theorem mem_blk (t : Fin cfg1.N) (i : S20000x64.Idx) :
    i ∈ ((cfg1.win 7).blk t).view.set ↔ ∀ a : Fin 2, win1_7.index t a * S4000x64.size a ≤ (i a).val
      ∧ (i a).val < win1_7.index t a * S4000x64.size a + S4000x64.size a := by
  show i ∈ ((View.whole main_v29).slice (win1_7.rect t)).set ↔ _
  rw [View.set_slice_whole, Rect.mem_set_unit]
  exact Iff.rfl

/-- Every row of the output lies in the block of the point numbered by the row's quotient by 4000. -/
theorem cover (i : S20000x64.Idx) :
    ∃ t : Fin cfg1.N, (cfg1.win 7).flush t = true ∧ i ∈ ((cfg1.win 7).blk t).view.set := by
  have hi0 : (i 0).val < 20000 := (i 0).isLt
  have hi1 : (i 1).val < 64 := (i 1).isLt
  let t : Fin cfg1.N := ⟨(i 0).val / 4000, by rw [show cfg1.N = 5 from N_1]; omega⟩
  obtain ⟨-, -, -, -, -, -, -, -, -, -, -, -, e0, e1⟩ := idx_facts t
  have ht : t.val = (i 0).val / 4000 := rfl
  refine ⟨t, flush1_7 t, ?_⟩
  rw [mem_blk]
  intro a
  match a with
  | ⟨0, _⟩ => show win1_7.index t (0 : Fin 2) * 4000 ≤ (i 0).val ∧ (i 0).val < win1_7.index t (0 : Fin 2) * 4000 + 4000
              rw [e0, ht]; omega
  | ⟨1, _⟩ => show win1_7.index t (1 : Fin 2) * 64 ≤ (i 1).val ∧ (i 1).val < win1_7.index t (1 : Fin 2) * 64 + 64
              rw [e1]; omega

/-- After the call the output array holds the perceptron of the arrays the call found. -/
theorem final (c : Dev nD) : (dat1 V c).arrAt 7 cfg1.N = nodeOut V c :=
  (dat1 V c).arrAt_eq_of_cover 7 (nodeOut V c) (fun t _ => flushed_eq V c t) (cover)

end Cert.KernelIdeal.NodeRegion

end
-- ==== Proof.ReferenceBody.lean ====
/-
  The reference's arithmetic is the perceptron of Spec.lean, for any number of rows.

  The reference joins its three `R×64` inputs side by side into one `R×192` matrix, multiplies it by the whole
  `192×128` first weight, adds the first bias (a vector made a `1×128` matrix and repeated down the rows), takes
  the maximum with a zero repeated everywhere, multiplies by the `128×64` second weight and adds the second
  bias the same way. Column `q` of the joined matrix is column `q`, `q − 64` or `q − 128` of the first, second
  or third input according to the band `q` lies in, so the 192-term sum of the first product is the sum of three
  64-term sums, one per input against one band of the weight (`sum_bands`): the kernel's three partial products.
-/
import proofs.«175040_j7103875907705_2_alg».proof.Proof.Spec
import proofs.«175040_j7103875907705_2_alg».proof.Proof.LibPlainDot
import Idealize.ShloMosaic.Lib.Pipeline.Value

noncomputable section

open scoped BigOperators

namespace Cert.MessagePassing

open Idealize.ShloMosaic Idealize.ShloMosaic.ValueIdx Cert.PlainDot

/-- A length-`C` vector made a `1×C` matrix on the second axis and then repeated down `R` rows holds the vector's
    entry `c` at `(p, c)` (`C ≠ 1`: the broadcast rule branches on unit extents). -/
theorem host_bias {α : Type} {R C : Nat} (hC : C ≠ 1) (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (c : Fin C) :
    broadcastInDim ⟨2, ![R, C]⟩ ![0, 1] h2 (broadcastInDim ⟨2, ![1, C]⟩ ![1] h1 v) (ix2 p c) = v (ix1 c) := by
  rw [broadcastInDim_apply _ h2 _ (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact broadcastInDim_apply _ h1 v (ix2 (0 : Fin 1) c) (ix1 c) (fun a => by
    match a with
    | ⟨0, _⟩ => show c.val = if C = 1 then 0 else c.val; rw [if_neg hC])

section Join

variable {R : Nat} (A B C : Arr2 R 64)
  (hcat : Shape.Concatenates (([⟨⟨2, ![R, 64]⟩, A⟩, ⟨⟨2, ![R, 64]⟩, B⟩, ⟨⟨2, ![R, 64]⟩, C⟩] :
      List ((s : Shape) × (s.Idx → EReal))).map (·.1)) ⟨2, ![R, 192]⟩ 1)

/-- The join of three `R×64` matrices along the columns. -/
abbrev join3 : Arr2 R 192 := concatenate ⟨2, ![R, 192]⟩ 1 [⟨⟨2, ![R, 64]⟩, A⟩, ⟨⟨2, ![R, 64]⟩, B⟩, ⟨⟨2, ![R, 64]⟩, C⟩] hcat

/-- Columns `0 … 63` of the join are the first matrix. -/
theorem join3_band0 (p : Fin R) (d : Fin 64) : join3 A B C hcat (ix2 p (band0 d)) = A (ix2 p d) :=
  concatenate_apply_piece 1 _ hcat (ix2 p (band0 d)) 0 (by simp) ⟨2, ![R, 64]⟩ A rfl rfl 0 rfl (ix2 p d)
    (fun b hb => by
      match b with
      | ⟨0, _⟩ => rfl
      | ⟨1, _⟩ => exact absurd rfl hb)
    (Nat.zero_add _)

/-- Columns `64 … 127` of the join are the second matrix. -/
theorem join3_band1 (p : Fin R) (d : Fin 64) : join3 A B C hcat (ix2 p (band1 d)) = B (ix2 p d) :=
  concatenate_apply_piece 1 _ hcat (ix2 p (band1 d)) 1 (by simp) ⟨2, ![R, 64]⟩ B rfl rfl 64 rfl (ix2 p d)
    (fun b hb => by
      match b with
      | ⟨0, _⟩ => rfl
      | ⟨1, _⟩ => exact absurd rfl hb)
    rfl

/-- Columns `128 … 191` of the join are the third matrix. -/
theorem join3_band2 (p : Fin R) (d : Fin 64) : join3 A B C hcat (ix2 p (band2 d)) = C (ix2 p d) :=
  concatenate_apply_piece 1 _ hcat (ix2 p (band2 d)) 2 (by simp) ⟨2, ![R, 64]⟩ C rfl rfl 128 rfl (ix2 p d)
    (fun b hb => by
      match b with
      | ⟨0, _⟩ => rfl
      | ⟨1, _⟩ => exact absurd rfl hb)
    rfl

/-- One entry of the joined matrix times the whole first weight is the three partial products, band by band. -/
theorem join3_dot (W1 : Arr2 192 128) (p : Fin R) (k : Fin 128) :
    ∑ q : Fin 192, join3 A B C hcat (ix2 p q) * W1 (ix2 q k)
      = ((∑ d : Fin 64, A (ix2 p d) * W1 (ix2 (band0 d) k)) + ∑ d : Fin 64, B (ix2 p d) * W1 (ix2 (band1 d) k))
          + ∑ d : Fin 64, C (ix2 p d) * W1 (ix2 (band2 d) k) := by
  rw [sum_bands]
  simp only [join3_band0, join3_band1, join3_band2]

end Join

/-- The reference's body is the perceptron over the whole first weight. -/
theorem reference_body {R : Nat}
    (d1 : DotDims ⟨2, ![R, 192]⟩ ⟨2, ![192, 128]⟩ ⟨2, ![R, 128]⟩) (h1 : IsPlain d1)
    (d2 : DotDims ⟨2, ![R, 128]⟩ ⟨2, ![128, 64]⟩ ⟨2, ![R, 64]⟩) (h2 : IsPlain d2)
    (A B C : FVec Ideal ⟨2, ![R, 64]⟩ .f32) (W1 : FVec Ideal ⟨2, ![192, 128]⟩ .f32) (b1 : FVec Ideal ⟨1, ![128]⟩ .f32)
    (W2 : FVec Ideal ⟨2, ![128, 64]⟩ .f32) (b2 : FVec Ideal ⟨1, ![64]⟩ .f32)
    (hcat : Shape.Concatenates (([⟨⟨2, ![R, 64]⟩, A⟩, ⟨⟨2, ![R, 64]⟩, B⟩, ⟨⟨2, ![R, 64]⟩, C⟩] :
      List ((s : Shape) × (s.Idx → EReal))).map (·.1)) ⟨2, ![R, 192]⟩ 1)
    (hb1 : (⟨1, ![128]⟩ : Shape).BroadcastsInDim ⟨2, ![1, 128]⟩ ![1])
    (hb1' : (⟨2, ![1, 128]⟩ : Shape).BroadcastsInDim ⟨2, ![R, 128]⟩ ![0, 1])
    (hz : (⟨0, ![]⟩ : Shape).BroadcastsInDim ⟨2, ![R, 128]⟩ ![])
    (hb2 : (⟨1, ![64]⟩ : Shape).BroadcastsInDim ⟨2, ![1, 64]⟩ ![1])
    (hb2' : (⟨2, ![1, 64]⟩ : Shape).BroadcastsInDim ⟨2, ![R, 64]⟩ ![0, 1]) :
    addf (Host.dotGeneral d2 none
            (maximumf
              (addf (Host.dotGeneral d1 none
                      (concatenate ⟨2, ![R, 192]⟩ 1 [⟨⟨2, ![R, 64]⟩, A⟩, ⟨⟨2, ![R, 64]⟩, B⟩, ⟨⟨2, ![R, 64]⟩, C⟩] hcat) W1)
                    (broadcastInDim ⟨2, ![R, 128]⟩ ![0, 1] hb1' (broadcastInDim ⟨2, ![1, 128]⟩ ![1] hb1 b1)))
              (broadcastInDim ⟨2, ![R, 128]⟩ ![] hz (constant ⟨0, ![]⟩ .f32 0x00000000#32))) W2)
         (broadcastInDim ⟨2, ![R, 64]⟩ ![0, 1] hb2' (broadcastInDim ⟨2, ![1, 64]⟩ ![1] hb2 b2))
      = mlp A B C W1 b1 W2 b2 := by
  funext i
  obtain ⟨p, q, rfl⟩ : ∃ (p : Fin R) (q : Fin 64), i = ix2 p q := ⟨i 0, i 1, eq_ix2 i⟩
  rw [addf_apply, dotGeneral_apply h2, host_bias (by decide) b2 hb2 hb2' p q]
  show _ = (∑ k : Fin 128,
      max ((((∑ d : Fin 64, A (ix2 p d) * W1 (ix2 (band0 d) k)) + ∑ d : Fin 64, B (ix2 p d) * W1 (ix2 (band1 d) k))
              + ∑ d : Fin 64, C (ix2 p d) * W1 (ix2 (band2 d) k)) + b1 (ix1 k)) zeroWord
        * W2 (ix2 k q)) + b2 (ix1 q)
  refine congrArg (· + _) (Finset.sum_congr rfl fun k _ => congrArg (· * _) ?_)
  rw [maximumf_apply, addf_apply, dotGeneral_apply h1, host_bias (by decide) b1 hb1 hb1' p k, join3_dot A B C hcat W1 p k]
  rfl

end Cert.MessagePassing

end
-- ==== Proof.ReferenceValue.lean ====
/-
  The reference's two results as perceptrons.

  Its edge result is the perceptron (Spec.lean) of the node features gathered at each edge's source, the same
  gathered at its destination, and the edge attributes; its node result is the perceptron of the node features,
  the edge result summed into each destination node, and the extra node features. Each is the reference's
  composed term, stage by stage, with its arithmetic recognised (ReferenceBody.lean); the gathers and the
  scatter-add are left as they are.
-/
import proofs.«175040_j7103875907705_2_alg».proof.Proof.Gen.ReferenceIdeal.Read
import proofs.«175040_j7103875907705_2_alg».proof.Proof.ReferenceBody

noncomputable section

namespace Cert.ReferenceIdeal.RefValue

open Cert.ReferenceIdeal Cert.ReferenceIdeal.Read Idealize.ShloMosaic Idealize.ShloMosaic.ValueIdx Cert.MessagePassing

/-- The edge result: the perceptron of the source rows, the destination rows and the edge attributes. -/
theorem edge_ref (x0 : (⟨S20000x64, .f32⟩ : BufTy).Contents (Elt Ideal)) (x1 : (⟨S2x640000, .i32⟩ : BufTy).Contents (Elt Ideal))
    (x2 : (⟨S640000x64, .f32⟩ : BufTy).Contents (Elt Ideal)) (x4 : (⟨S192x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) :
    val_main_v27 (F := Ideal) x0 x1 x2 x4 x5 x6 x7
      = mlp (val_main_v10 (F := Ideal) x0 x1) (val_main_v17 (F := Ideal) x0 x1) x2 x4 x5 x6 x7 := by
  unfold val_main_v27 val_main_v26 val_main_v25 val_main_v24 val_main_v23 val_main_call0_v0 val_main_call0_cst val_main_v22
    val_main_v21 val_main_v20 val_main_v19 val_main_v18
  exact reference_body (R := 640000) dot_S640000x192_S192x128_S640000x128_1_0_0_1_n_n ⟨rfl, rfl, rfl, rfl, rfl, rfl⟩
    dot_S640000x128_S128x64_S640000x64_1_0_0_1_n_n ⟨rfl, rfl, rfl, rfl, rfl, rfl⟩ _ _ _ _ _ _ _ _ _ _ _ _ _

/-- The node result: the perceptron of the node features, the summed messages and the extra features. -/
theorem node_ref (x0 : (⟨S20000x64, .f32⟩ : BufTy).Contents (Elt Ideal)) (x1 : (⟨S2x640000, .i32⟩ : BufTy).Contents (Elt Ideal))
    (x2 : (⟨S640000x64, .f32⟩ : BufTy).Contents (Elt Ideal)) (x3 : (⟨S20000x64, .f32⟩ : BufTy).Contents (Elt Ideal))
    (x4 : (⟨S192x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) (x8 : (⟨S192x128, .f32⟩ : BufTy).Contents (Elt Ideal))
    (x9 : (⟨S128, .f32⟩ : BufTy).Contents (Elt Ideal)) (x10 : (⟨S128x64, .f32⟩ : BufTy).Contents (Elt Ideal))
    (x11 : (⟨S64, .f32⟩ : BufTy).Contents (Elt Ideal)) :
    val_main_v40 (F := Ideal) x0 x1 x2 x3 x4 x5 x6 x7 x8 x9 x10 x11
      = mlp x0 (val_main_v30 (F := Ideal) x0 x1 x2 x4 x5 x6 x7) x3 x8 x9 x10 x11 := by
  unfold val_main_v40 val_main_v39 val_main_v38 val_main_v37 val_main_v36 val_main_call1_v0 val_main_call1_cst val_main_v35
    val_main_v34 val_main_v33 val_main_v32 val_main_v31
  exact reference_body (R := 20000) dot_S20000x192_S192x128_S20000x128_1_0_0_1_n_n ⟨rfl, rfl, rfl, rfl, rfl, rfl⟩
    dot_S20000x128_S128x64_S20000x64_1_0_0_1_n_n ⟨rfl, rfl, rfl, rfl, rfl, rfl⟩ _ _ _ _ _ _ _ _ _ _ _ _ _

end Cert.ReferenceIdeal.RefValue

end
-- ==== Proof.Bridge.lean ====
/-
  The first pallas_call's output is the reference's edge result of the kernel's own arguments.

  Walking the first segment boundary back to the launch memory: what the first pallas_call finds in its seven
  input arrays is, array by array, what the reference feeds its edge perceptron — the node features gathered at
  the sources and at the destinations of the edges (a change of float format is the identity on the extended
  reals, and the index arithmetic before the gather is the same text), the edge attributes, the weights and
  biases — so its output is the reference's edge result.
-/
import proofs.«175040_j7103875907705_2_alg».proof.Proof.KernelRun
import proofs.«175040_j7103875907705_2_alg».proof.Proof.EdgeRegion
import proofs.«175040_j7103875907705_2_alg».proof.Proof.NodeRegion
import proofs.«175040_j7103875907705_2_alg».proof.Proof.ReferenceValue
import Idealize.ShloMosaic.Lib.StableHlo.Run

set_option maxRecDepth 16384

noncomputable section

namespace Cert.Bridge

open Cert.KernelIdeal Cert.KernelIdeal.Gen Idealize.ShloMosaic Idealize.ShloMosaic.TcCoe Idealize.ShloMosaic.StableHlo
open Idealize.SL.Sem
open Cert.ReferenceIdeal.Read (val_main_v3 val_main_v10 val_main_v17 val_main_v27 val_main_v30 val_main_v40)

variable (m : (ℓ : Loc nD τ sig) → Buf (Elt Ideal) ℓ) (ρ : Dev nD → PrngReg) (c : Dev nD)

/-- An argument array of core `c` at launch. -/
abbrev arg (b : Ref sig .tc) : Buf (Elt Ideal) ((c.tc : Thread nD τ).loc b) := m ((c.tc : Thread nD τ).loc b)

/-! ## What the first call finds -/

theorem src_rows : (V1 m ρ c main_v11 : S640000x64.Idx → EReal)
    = val_main_v10 (F := Ideal) (arg m c main_arg0) (arg m c main_arg1) := by
  show StableHlo.after hostOps0 (W0 m ρ c) (Proc.devRef .tc main_v11) = _
  after_results
  rfl

set_option maxHeartbeats 1000000 in
theorem dst_rows : (V1 m ρ c main_v18 : S640000x64.Idx → EReal)
    = val_main_v17 (F := Ideal) (arg m c main_arg0) (arg m c main_arg1) := by
  show StableHlo.after hostOps0 (W0 m ρ c) (Proc.devRef .tc main_v18) = _
  after_results_simp
  rfl

theorem edge_attr : (V1 m ρ c main_arg2 : S640000x64.Idx → EReal) = arg m c main_arg2 := by
  show StableHlo.after hostOps0 (W0 m ρ c) (Proc.devRef .tc main_arg2) = _
  after_results

theorem edge_w1 : (V1 m ρ c main_v19 : S192x128.Idx → EReal) = arg m c main_arg4 := by
  show StableHlo.after hostOps0 (W0 m ρ c) (Proc.devRef .tc main_v19) = _
  after_results
  rfl

theorem edge_b1 : (V1 m ρ c main_arg5 : S128.Idx → EReal) = arg m c main_arg5 := by
  show StableHlo.after hostOps0 (W0 m ρ c) (Proc.devRef .tc main_arg5) = _
  after_results

theorem edge_w2 : (V1 m ρ c main_v20 : S128x64.Idx → EReal) = arg m c main_arg6 := by
  show StableHlo.after hostOps0 (W0 m ρ c) (Proc.devRef .tc main_v20) = _
  after_results
  rfl

theorem edge_b2 : (V1 m ρ c main_arg7 : S64.Idx → EReal) = arg m c main_arg7 := by
  show StableHlo.after hostOps0 (W0 m ρ c) (Proc.devRef .tc main_arg7) = _
  after_results

/-- The first call's output is the reference's edge result of the kernel's arguments. -/
theorem edge_value : EdgeRegion.edgeOut (V1 m ρ) c
    = val_main_v27 (F := Ideal) (arg m c main_arg0) (arg m c main_arg1) (arg m c main_arg2) (arg m c main_arg4)
        (arg m c main_arg5) (arg m c main_arg6) (arg m c main_arg7) := by
  unfold EdgeRegion.edgeOut
  rw [src_rows, dst_rows, edge_attr, edge_w1, edge_b1, edge_w2, edge_b2]
  exact (Cert.ReferenceIdeal.RefValue.edge_ref _ _ _ _ _ _ _).symm

end Cert.Bridge

end
-- ==== Proof.BridgeNode.lean ====
/-
  The second pallas_call's output is the reference's node result of the kernel's own arguments.

  Between the calls the host sums the first call's output into each edge's destination node, as the reference
  does with its own edge result, which that output is (Bridge.lean); the node features and the weights were
  prepared before the first call and nothing has written them since. So the second call finds the reference's
  three node inputs and its weights, and its output is the reference's node result.
-/
import proofs.«175040_j7103875907705_2_alg».proof.Proof.Bridge

set_option maxRecDepth 16384

noncomputable section

namespace Cert.Bridge

open Cert.KernelIdeal Cert.KernelIdeal.Gen Idealize.ShloMosaic Idealize.ShloMosaic.TcCoe Idealize.ShloMosaic.StableHlo
open Idealize.SL.Sem
open Cert.ReferenceIdeal.Read (val_main_v3 val_main_v10 val_main_v17 val_main_v27 val_main_v30 val_main_v40)

variable (m : (ℓ : Loc nD τ sig) → Buf (Elt Ideal) ℓ) (ρ : Dev nD → PrngReg) (c : Dev nD)

/-- Narrowing the float format of an array changes nothing on the extended reals. -/
theorem narrow_id {s : Shape} (X : FVec Ideal s .f32) (h : FTy.bf16.bits < FTy.f32.bits) :
    (truncf .bf16 X h : FVec Ideal s .bf16) = X := rfl

/-! ## Between the calls -/

/-- At the first call's exit its output array holds the reference's edge result of the kernel's arguments. -/
theorem edge_exit : (W2 m ρ c (Proc.devRef .tc main_v23) : S640000x64.Idx → EReal)
    = val_main_v27 (F := Ideal) (arg m c main_arg0) (arg m c main_arg1) (arg m c main_arg2) (arg m c main_arg4) (arg m c main_arg5) (arg m c main_arg6) (arg m c main_arg7) :=
  ((W2_arr m ρ c 7).trans (EdgeRegion.final (V1 m ρ) c)).trans (edge_value m ρ c)

/-- No later segment writes that array: it is the kernel's edge result. -/
theorem edge_final : (W4 m ρ c (Proc.devRef .tc main_v23) : S640000x64.Idx → EReal)
    = val_main_v27 (F := Ideal) (arg m c main_arg0) (arg m c main_arg1) (arg m c main_arg2) (arg m c main_arg4) (arg m c main_arg5) (arg m c main_arg6) (arg m c main_arg7) := by
  refine (W4_of_ne m ρ c main_v23 (by decide)).trans ?_
  show StableHlo.after hostOps1 (W2 m ρ c) (Proc.devRef .tc main_v23) = _
  after_results
  exact edge_exit m ρ c

/-- The destination row of the index table, as the host reshaped it before the first call. -/
theorem dest_index : (W1 m ρ c (Proc.devRef .tc main_v3) : (⟨S640000, .i32⟩ : BufTy).Contents (Elt Ideal))
    = val_main_v3 (F := Ideal) (arg m c main_arg1) := by
  show StableHlo.after hostOps0 (W0 m ρ c) (Proc.devRef .tc main_v3) = _
  after_results
  rfl

/-! ## What the second call finds -/

/-- The node features: written before the first call, untouched since. -/
theorem node_x : (V3 m ρ c main_v4 : S20000x64.Idx → EReal) = arg m c main_arg0 := by
  show StableHlo.after hostOps1 (W2 m ρ c) (Proc.devRef .tc main_v4) = _
  after_results
  refine (W2_of_ne m ρ c main_v4 (by decide)).trans ?_
  show StableHlo.after hostOps0 (W0 m ρ c) (Proc.devRef .tc main_v4) = _
  after_results
  rfl

/-- The summed messages: the first call's output added into each edge's destination node, as the reference adds its
    own edge result. -/
theorem node_agg : (V3 m ρ c main_v27 : S20000x64.Idx → EReal)
    = val_main_v30 (F := Ideal) (arg m c main_arg0) (arg m c main_arg1) (arg m c main_arg2) (arg m c main_arg4) (arg m c main_arg5) (arg m c main_arg6) (arg m c main_arg7) := by
  show StableHlo.after hostOps1 (W2 m ρ c) (Proc.devRef .tc main_v27) = _
  after_results
  rw [edge_exit m ρ c, W2_of_ne m ρ c main_v3 (by decide), dest_index m ρ c, narrow_id]
  unfold val_main_v30 Cert.ReferenceIdeal.Read.val_main_v29 Cert.ReferenceIdeal.Read.val_main_v28 Cert.ReferenceIdeal.Read.val_main_cst
  rfl

/-- The extra node features: narrowed in format between the calls, which changes nothing. -/
theorem node_f : (V3 m ρ c main_v28 : S20000x64.Idx → EReal) = arg m c main_arg3 := by
  show StableHlo.after hostOps1 (W2 m ρ c) (Proc.devRef .tc main_v28) = _
  after_results
  rw [narrow_id, W2_of_ne m ρ c main_arg3 (by decide)]
  show StableHlo.after hostOps0 (W0 m ρ c) (Proc.devRef .tc main_arg3) = _
  after_results

/-- The node perceptron's first weight. -/
theorem node_w1 : (V3 m ρ c main_v21 : S192x128.Idx → EReal) = arg m c main_arg8 := by
  show StableHlo.after hostOps1 (W2 m ρ c) (Proc.devRef .tc main_v21) = _
  after_results
  refine (W2_of_ne m ρ c main_v21 (by decide)).trans ?_
  show StableHlo.after hostOps0 (W0 m ρ c) (Proc.devRef .tc main_v21) = _
  after_results
  rfl

/-- Its first bias. -/
theorem node_b1 : (V3 m ρ c main_arg9 : S128.Idx → EReal) = arg m c main_arg9 := by
  show StableHlo.after hostOps1 (W2 m ρ c) (Proc.devRef .tc main_arg9) = _
  after_results
  refine (W2_of_ne m ρ c main_arg9 (by decide)).trans ?_
  show StableHlo.after hostOps0 (W0 m ρ c) (Proc.devRef .tc main_arg9) = _
  after_results

/-- Its second weight. -/
theorem node_w2 : (V3 m ρ c main_v22 : S128x64.Idx → EReal) = arg m c main_arg10 := by
  show StableHlo.after hostOps1 (W2 m ρ c) (Proc.devRef .tc main_v22) = _
  after_results
  refine (W2_of_ne m ρ c main_v22 (by decide)).trans ?_
  show StableHlo.after hostOps0 (W0 m ρ c) (Proc.devRef .tc main_v22) = _
  after_results
  rfl

/-- Its second bias. -/
theorem node_b2 : (V3 m ρ c main_arg11 : S64.Idx → EReal) = arg m c main_arg11 := by
  show StableHlo.after hostOps1 (W2 m ρ c) (Proc.devRef .tc main_arg11) = _
  after_results
  refine (W2_of_ne m ρ c main_arg11 (by decide)).trans ?_
  show StableHlo.after hostOps0 (W0 m ρ c) (Proc.devRef .tc main_arg11) = _
  after_results

/-- The second call's output is the reference's node result of the kernel's arguments. -/
theorem node_value : NodeRegion.nodeOut (V3 m ρ) c
    = val_main_v40 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  unfold NodeRegion.nodeOut
  rw [node_x, node_agg, node_f, node_w1, node_b1, node_w2, node_b2]
  exact (Cert.ReferenceIdeal.RefValue.node_ref _ _ _ _ _ _ _ _ _ _ _ _).symm

/-- The second call's output array at the end is the kernel's node result. -/
theorem node_final : (W4 m ρ c (Proc.devRef .tc main_v29) : S20000x64.Idx → EReal)
    = val_main_v40 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) :=
  ((W4_arr m ρ c 7).trans (NodeRegion.final (V3 m ρ) c)).trans (node_value m ρ c)

end Cert.Bridge

end
-- ==== Proof.lean ====
/-
  A message-passing layer on a graph of 20000 nodes and 640000 edges, against its plain reference, on the
  extended reals.

  Both programs compute, for every edge, a three-input perceptron (Proof/Spec.lean) of the node features at the
  edge's source, the node features at its destination and the edge's attributes; sum those edge results into
  each edge's destination node; and compute, for every node, a second perceptron of the node's features, its
  summed messages and its extra features. The kernel runs each perceptron as a pallas_call over row blocks
  (80 blocks of 8000 edges, 5 blocks of 4000 nodes), with the first layer as three partial products against
  the three 64-row bands of the weight, and leaves the gathers and the scatter-add to the host; the reference
  joins the three inputs into one 192-column matrix and takes one product. A change of float format is the
  identity on the extended reals, a product into a zero accumulator is the plain sum, and a 192-term sum is
  the sum of its three bands in any commutative monoid, so the two agree at every input, infinite entries
  included: the precondition is not used for the values.

  Proof/Perceptron.lean: the kernel body's arithmetic is the perceptron. Proof/EdgeRegion.lean and
  Proof/NodeRegion.lean: each pallas_call's output array is the perceptron of the arrays it finds.
  Proof/KernelRun.lean: the run, with the final memory named. Proof/ReferenceBody.lean and
  Proof/ReferenceValue.lean: the reference's two results are the same perceptrons. Proof/Bridge.lean and Proof/BridgeNode.lean:
  what the calls find is what the reference feeds its perceptrons. The three frames are the generated ones, the
  reference's being its generated run with the results dropped; the idealization rewrote nothing.
-/
import proofs.«175040_j7103875907705_2_alg».proof.Defs
import proofs.«175040_j7103875907705_2_alg».proof.Proof.Gen.Kernel
import proofs.«175040_j7103875907705_2_alg».proof.Proof.Gen.Kernel.Skeleton
import proofs.«175040_j7103875907705_2_alg».proof.Proof.Gen.Kernel.Launch
import proofs.«175040_j7103875907705_2_alg».proof.Proof.Gen.Kernel.Points
import proofs.«175040_j7103875907705_2_alg».proof.Proof.Gen.Kernel.Frame
import proofs.«175040_j7103875907705_2_alg».proof.Proof.Gen.KernelIdeal
import proofs.«175040_j7103875907705_2_alg».proof.Proof.Gen.KernelIdeal.Skeleton
import proofs.«175040_j7103875907705_2_alg».proof.Proof.Gen.KernelIdeal.Launch
import proofs.«175040_j7103875907705_2_alg».proof.Proof.Gen.KernelIdeal.Points
import proofs.«175040_j7103875907705_2_alg».proof.Proof.Gen.KernelIdeal.Frame
import proofs.«175040_j7103875907705_2_alg».proof.Proof.Gen.ReferenceIdeal
import proofs.«175040_j7103875907705_2_alg».proof.Proof.Gen.ReferenceIdeal.Run
import proofs.«175040_j7103875907705_2_alg».proof.Proof.Gen.ReferenceIdeal.Read
import proofs.«175040_j7103875907705_2_alg».proof.Proof.Gen.Pre_finite_inputs
import proofs.«175040_j7103875907705_2_alg».proof.Proof.BridgeNode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the node result and the edge result the reference's terms give on the kernel's
    arguments: the kernel by its run and Proof/BridgeNode.lean, the reference by its run on arguments that agree. -/
theorem algebraic : Cert.algebraic_KernelIdeal_ReferenceIdeal := by
  intro m ρ m' ρ' _ hagree
  refine ⟨fun c => Cert.ReferenceIdeal.Read.val_main_v40 (F := Ideal) (Cert.Bridge.arg m c Cert.KernelIdeal.main_arg0) (Cert.Bridge.arg m c Cert.KernelIdeal.main_arg1) (Cert.Bridge.arg m c Cert.KernelIdeal.main_arg2) (Cert.Bridge.arg m c Cert.KernelIdeal.main_arg3) (Cert.Bridge.arg m c Cert.KernelIdeal.main_arg4) (Cert.Bridge.arg m c Cert.KernelIdeal.main_arg5) (Cert.Bridge.arg m c Cert.KernelIdeal.main_arg6) (Cert.Bridge.arg m c Cert.KernelIdeal.main_arg7) (Cert.Bridge.arg m c Cert.KernelIdeal.main_arg8) (Cert.Bridge.arg m c Cert.KernelIdeal.main_arg9) (Cert.Bridge.arg m c Cert.KernelIdeal.main_arg10) (Cert.Bridge.arg m c Cert.KernelIdeal.main_arg11),
    fun c => Cert.ReferenceIdeal.Read.val_main_v27 (F := Ideal) (Cert.Bridge.arg m c Cert.KernelIdeal.main_arg0) (Cert.Bridge.arg m c Cert.KernelIdeal.main_arg1) (Cert.Bridge.arg m c Cert.KernelIdeal.main_arg2) (Cert.Bridge.arg m c Cert.KernelIdeal.main_arg4) (Cert.Bridge.arg m c Cert.KernelIdeal.main_arg5) (Cert.Bridge.arg m c Cert.KernelIdeal.main_arg6) (Cert.Bridge.arg m c Cert.KernelIdeal.main_arg7), ?_, ?_⟩
  · exact (θ_run Cert.KernelIdeal.defs _ _).mono (fun r h c =>
      ⟨(h c Cert.KernelIdeal.main_v29 (by decide)).trans (Cert.Bridge.node_final m ρ c),
       (h c Cert.KernelIdeal.main_v23 (by decide)).trans (Cert.Bridge.edge_final m ρ c),
       (h c Cert.KernelIdeal.main_arg0 (by decide)).trans (Cert.KernelIdeal.Gen.W4_main_arg0 m ρ c),
       (h c Cert.KernelIdeal.main_arg1 (by decide)).trans (Cert.KernelIdeal.Gen.W4_main_arg1 m ρ c),
       (h c Cert.KernelIdeal.main_arg2 (by decide)).trans (Cert.KernelIdeal.Gen.W4_main_arg2 m ρ c),
       (h c Cert.KernelIdeal.main_arg3 (by decide)).trans (Cert.KernelIdeal.Gen.W4_main_arg3 m ρ c),
       (h c Cert.KernelIdeal.main_arg4 (by decide)).trans (Cert.KernelIdeal.Gen.W4_main_arg4 m ρ c),
       (h c Cert.KernelIdeal.main_arg5 (by decide)).trans (Cert.KernelIdeal.Gen.W4_main_arg5 m ρ c),
       (h c Cert.KernelIdeal.main_arg6 (by decide)).trans (Cert.KernelIdeal.Gen.W4_main_arg6 m ρ c),
       (h c Cert.KernelIdeal.main_arg7 (by decide)).trans (Cert.KernelIdeal.Gen.W4_main_arg7 m ρ c),
       (h c Cert.KernelIdeal.main_arg8 (by decide)).trans (Cert.KernelIdeal.Gen.W4_main_arg8 m ρ c),
       (h c Cert.KernelIdeal.main_arg9 (by decide)).trans (Cert.KernelIdeal.Gen.W4_main_arg9 m ρ c),
       (h c Cert.KernelIdeal.main_arg10 (by decide)).trans (Cert.KernelIdeal.Gen.W4_main_arg10 m ρ c),
       (h c Cert.KernelIdeal.main_arg11 (by decide)).trans (Cert.KernelIdeal.Gen.W4_main_arg11 m ρ c)⟩)
      (Cert.KernelIdeal.WholeRun.run_boundary m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11⟩ := hagree c
    refine ⟨(h c).1.trans ((Cert.ReferenceIdeal.Read.val_main_v40_eq (F := Ideal) _ _ _ _ _ _ _ _ _ _ _ _).trans ?_),
      (h c).2.1.trans ((Cert.ReferenceIdeal.Read.val_main_v27_eq (F := Ideal) _ _ _ _ _ _ _).trans ?_), (h c).2.2⟩
    · simp only [e0, e1, e2, e3, e4, e5, e6, e7, e8, e9, e10, e11, Cert.Bridge.arg]
    · simp only [e0, e1, e2, e4, e5, e6, e7, Cert.Bridge.arg]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
